-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1x64x4096 : Shape := ⟨4, ![256, 1, 64, 4096]⟩
abbrev S256x64x4096 : Shape := ⟨3, ![256, 64, 4096]⟩
abbrev S256 : Shape := ⟨1, ![256]⟩
abbrev S_ : Shape := ⟨0, ![]⟩

class Facts : Prop where
  bcast_S_S256x1x64x4096 : S_.BroadcastsInDim S256x1x64x4096 (![] : Fin 0 → Fin S256x1x64x4096.rank)
  reducesTo_S256x1x64x4096_S_d0_1_2_3 : S256x1x64x4096.ReducesTo [0, 1, 2, 3] S_
  h_S_ : 0 < S_.numel
  bcast_S_S256x64x4096 : S_.BroadcastsInDim S256x64x4096 (![] : Fin 0 → Fin S256x64x4096.rank)
  reducesTo_S256x64x4096_S_d0_1_2 : S256x64x4096.ReducesTo [0, 1, 2] S_

variable [Facts]

def fn {F : FTy → Type} [FloatOps F] (main_arg0 : FVec F S256x1x64x4096 .f32) (main_arg1 : FVec F S256x64x4096 .f32) (main_arg2 : IVec S256 1) : IVec S_ 1 :=
  let main_v0 : FVec F S256x1x64x4096 .f32 := Host.absf main_arg0
  let main_cst : FVec F S_ .f32 := constant S_ .f32 0x7F800000#32
  let main_v1 : FVec F S256x1x64x4096 .f32 := broadcastInDim S256x1x64x4096 ![] bcast_S_S256x1x64x4096 main_cst
  let main_v2 : IVec S256x1x64x4096 1 := cmpf .olt main_v0 main_v1
  let main_c : IVec S_ 1 := constantI S_ 1 1#1
  let main_v3 : IVec S_ 1 := (fun x v => Host.reduce IntOp.andi x v reducesTo_S256x1x64x4096_S_d0_1_2_3 h_S_) main_v2 main_c
  let main_v4 : FVec F S256x64x4096 .f32 := Host.absf main_arg1
  let main_cst_0 : FVec F S_ .f32 := constant S_ .f32 0x7F800000#32
  let main_v5 : FVec F S256x64x4096 .f32 := broadcastInDim S256x64x4096 ![] bcast_S_S256x64x4096 main_cst_0
  let main_v6 : IVec S256x64x4096 1 := cmpf .olt main_v4 main_v5
  let main_c_1 : IVec S_ 1 := constantI S_ 1 1#1
  let main_v7 : IVec S_ 1 := (fun x v => Host.reduce IntOp.andi x v reducesTo_S256x64x4096_S_d0_1_2 h_S_) main_v6 main_c_1
  let main_v8 : IVec S_ 1 := andi main_v3 main_v7
  main_v8
-- ==== Kernel.lean ====
abbrev S256x1x64x4096 : Shape := ⟨4, ![256, 1, 64, 4096]⟩
abbrev S256x64x4096 : Shape := ⟨3, ![256, 64, 4096]⟩
abbrev S256 : Shape := ⟨1, ![256]⟩
abbrev S256x1x1 : Shape := ⟨3, ![256, 1, 1]⟩
abbrev S4x1x64x4096 : Shape := ⟨4, ![4, 1, 64, 4096]⟩
abbrev S4x64x4096 : Shape := ⟨3, ![4, 64, 4096]⟩
abbrev S4x1x1 : Shape := ⟨3, ![4, 1, 1]⟩
abbrev S4x64 : Shape := ⟨2, ![4, 64]⟩
abbrev S4x64x1 : Shape := ⟨3, ![4, 64, 1]⟩

abbrev nBuf : Space → Nat
  | .hbm => 6
  | .vmem => 8
  | .smem => 0
  | _ => 0

abbrev bufTy : (tb : Table) → Fin (tcTables nBuf tb) → BufTy
  | .hbm, ⟨0, _⟩ => ⟨S256x1x64x4096, .f32⟩
  | .hbm, ⟨1, _⟩ => ⟨S256x64x4096, .f32⟩
  | .hbm, ⟨2, _⟩ => ⟨S256, .i1⟩
  | .hbm, ⟨3, _⟩ => ⟨S256, .f32⟩
  | .hbm, ⟨4, _⟩ => ⟨S256x1x1, .f32⟩
  | .hbm, ⟨5, _⟩ => ⟨S256x1x64x4096, .f32⟩
  | .local _ .vmem, ⟨0, _⟩ => ⟨S4x1x64x4096, .f32⟩
  | .local _ .vmem, ⟨1, _⟩ => ⟨S4x1x64x4096, .f32⟩
  | .local _ .vmem, ⟨2, _⟩ => ⟨S4x64x4096, .f32⟩
  | .local _ .vmem, ⟨3, _⟩ => ⟨S4x64x4096, .f32⟩
  | .local _ .vmem, ⟨4, _⟩ => ⟨S4x1x1, .f32⟩
  | .local _ .vmem, ⟨5, _⟩ => ⟨S4x1x1, .f32⟩
  | .local _ .vmem, ⟨6, _⟩ => ⟨S4x1x64x4096, .f32⟩
  | .local _ .vmem, ⟨7, _⟩ => ⟨S4x1x64x4096, .f32⟩
  | _, _ => ⟨S256x1x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S256x1x1 : S256.ShapeCasts S256x1x1
  inb_S4x1x64x4096_S4x1x64x4096_0_0_0_0 : ∀ a, (![0, 0, 0, 0] : Fin 4 → Nat) a + S4x1x64x4096.size a ≤ S4x1x64x4096.size a
  h_S4x1x64x4096 : 0 < S4x1x64x4096.numel
  shapeCasts_S4x1x64x4096_S4x64x4096 : S4x1x64x4096.ShapeCasts S4x64x4096
  reduces_S4x64x4096_S4x64 : S4x64x4096.Reduces [2] S4x64
  shapeCasts_S4x64_S4x64x1 : S4x64.ShapeCasts S4x64x1
  inb_S4x64x4096_S4x64x4096_0_0_0 : ∀ a, (![0, 0, 0] : Fin 3 → Nat) a + S4x64x4096.size a ≤ S4x64x4096.size a
  h_S4x64x4096 : 0 < S4x64x4096.numel
  broadcasts_S4x64x1_S4x64x4096 : S4x64x1.Broadcasts S4x64x4096
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  broadcasts_S4x1x1_S4x64x4096 : S4x1x1.Broadcasts S4x64x4096
  shapeCasts_S4x64x4096_S4x1x64x4096 : S4x64x4096.ShapeCasts S4x1x64x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x64x4096.size a ≤ S256x1x64x4096.size a
  hwx0_0 : ∀ i : grid0.Coords, EltTy.bits .f32 = 32 ∨ (Rect.block (s := S256x1x64x4096) S4x1x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x4096.size a ≤ S256x64x4096.size a
  hwx0_1 : ∀ i : grid0.Coords, EltTy.bits .f32 = 32 ∨ (Rect.block (s := S256x64x4096) S4x64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x1.size a ≤ S256x1x1.size a
  hwx0_2 : ∀ i : grid0.Coords, EltTy.bits .f32 = 32 ∨ (Rect.block (s := S256x1x1) S4x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x64x4096.size a ≤ S256x1x64x4096.size a
  hwx0_3 : ∀ i : grid0.Coords, EltTy.bits .f32 = 32 ∨ (Rect.block (s := S256x1x64x4096) S4x1x64x4096.size (cc0_transform_3 i) (hinb0_3 i)).WholeWords (EltTy.packing .f32)

variable [Facts₀]

abbrev win0_0 : Pipeline.Window sig grid0 :=
  Pipeline.Window.ofSpec (Memref.whole main_arg0) S4x1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x1x64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x1x64x4096 : Shape := ⟨4, ![256, 1, 64, 4096]⟩
abbrev S256x64x4096 : Shape := ⟨3, ![256, 64, 4096]⟩
abbrev S256 : Shape := ⟨1, ![256]⟩
abbrev S_ : Shape := ⟨0, ![]⟩
abbrev S256x64 : Shape := ⟨2, ![256, 64]⟩
abbrev S256x64x1 : Shape := ⟨3, ![256, 64, 1]⟩
abbrev S256x1x1 : Shape := ⟨3, ![256, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S256x1x64x4096, .f32⟩
  | .hbm, ⟨1, _⟩ => ⟨S256x64x4096, .f32⟩
  | .hbm, ⟨2, _⟩ => ⟨S256, .i1⟩
  | .hbm, ⟨3, _⟩ => ⟨S256x64x4096, .f32⟩
  | .hbm, ⟨4, _⟩ => ⟨S_, .f32⟩
  | .hbm, ⟨5, _⟩ => ⟨S256x64, .f32⟩
  | .hbm, ⟨6, _⟩ => ⟨S_, .f32⟩
  | .hbm, ⟨7, _⟩ => ⟨S256x64, .f32⟩
  | .hbm, ⟨8, _⟩ => ⟨S256x64, .f32⟩
  | .hbm, ⟨9, _⟩ => ⟨S256x64, .f32⟩
  | .hbm, ⟨10, _⟩ => ⟨S_, .f32⟩
  | .hbm, ⟨11, _⟩ => ⟨S256x64, .f32⟩
  | .hbm, ⟨12, _⟩ => ⟨S256x64, .f32⟩
  | .hbm, ⟨13, _⟩ => ⟨S256x64, .f32⟩
  | .hbm, ⟨14, _⟩ => ⟨S256x64x1, .f32⟩
  | .hbm, ⟨15, _⟩ => ⟨S256x64x4096, .f32⟩
  | .hbm, ⟨16, _⟩ => ⟨S256x64x4096, .f32⟩
  | .hbm, ⟨17, _⟩ => ⟨S256x1x1, .i1⟩
  | .hbm, ⟨18, _⟩ => ⟨S_, .f32⟩
  | .hbm, ⟨19, _⟩ => ⟨S_, .f32⟩
  | .hbm, ⟨20, _⟩ => ⟨S256x64x4096, .i1⟩
  | .hbm, ⟨21, _⟩ => ⟨S256x64x4096, .f32⟩
  | .hbm, ⟨22, _⟩ => ⟨S256x64x4096, .f32⟩
  | .hbm, ⟨23, _⟩ => ⟨S256x1x64x4096, .f32⟩
  | .hbm, ⟨24, _⟩ => ⟨S256x1x64x4096, .f32⟩
  | _, _ => ⟨S256x1x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  shapeCasts_S256x1x64x4096_S256x64x4096 : S256x1x64x4096.ShapeCasts S256x64x4096
  reducesTo_S256x64x4096_S256x64_d2 : S256x64x4096.ReducesTo [2] S256x64
  h_S_ : 0 < S_.numel
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  bcast_S256x64x1_S256x64x4096_0_1_2 : S256x64x1.BroadcastsInDim S256x64x4096 (![0, 1, 2] : Fin 3 → Fin S256x64x4096.rank)
  bcast_S256_S256x1x1_0 : S256.BroadcastsInDim S256x1x1 (![0] : Fin 1 → Fin S256x1x1.rank)
  bcast_S256x1x1_S256x64x4096_0_1_2 : S256x1x1.BroadcastsInDim S256x64x4096 (![0, 1, 2] : Fin 3 → Fin S256x64x4096.rank)
  bcast_S_S256x64x4096 : S_.BroadcastsInDim S256x64x4096 (![] : Fin 0 → Fin S256x64x4096.rank)
  bcast_S256x64x4096_S256x1x64x4096_0_2_3 : S256x64x4096.BroadcastsInDim S256x1x64x4096 (![0, 2, 3] : Fin 3 → Fin S256x1x64x4096.rank)

variable [Facts₀]

class Facts : Prop extends Facts₀ where

variable [Facts]
-- ==== Proof.NoiseSpec.lean ====
/-
  Gated noise injection, as one function of the argument arrays.

  For a signal `x` of shape [256, 1, 64, 4096], unit noise `n` of shape [256, 64, 4096] and one gate bit per batch entry,
  the result at (b, 0, c, t) is

      x[b,0,c,t] + gate(b) · n[b,c,t] · σ(b,c),      σ(b,c) = √( |(Σ_k x[b,0,c,k]) / 4096| · s ),

  where `s` is the f32 nearest to one tenth (the same binary value on both sides, never evaluated) and the row sum runs
  over the 4096 time steps of row (b, c). The gate enters in two spellings: as a factor, the bit read as the number 0 or 1
  (`injectMul`), and as a choice between the noise term and zero (`injectSel`). On the extended reals the two agree for
  every value of the noise term, infinite ones included, because a product with 0 is 0 and a product with 1 is the other
  factor (`mul_gate`): no finiteness of the inputs is needed.
-/
import Idealize.ShloMosaic.PureOps.Ideal
import Idealize.ShloMosaic.PureOps.Ideal.Laws
import Idealize.ShloMosaic.Lib.ValueIdx

noncomputable section

namespace Cert.NoiseSpec

open Idealize.ShloMosaic Idealize.ShloMosaic.ValueIdx

/-- The signal's, the noise's, the gate bits' and the gate factors' index types. -/
abbrev SigIdx : Type := (⟨4, ![256, 1, 64, 4096]⟩ : Shape).Idx
abbrev NoiseIdx : Type := (⟨3, ![256, 64, 4096]⟩ : Shape).Idx
abbrev GateIdx : Type := (⟨1, ![256]⟩ : Shape).Idx
abbrev FactorIdx : Type := (⟨3, ![256, 1, 1]⟩ : Shape).Idx

/-- The sum of row (b, c) of the signal over its 4096 time steps. -/
def rowSum (x : SigIdx → EReal) (b : Fin 256) (c : Fin 64) : EReal :=
  ∑ k : Fin 4096, x (ix4 b (0 : Fin 1) c k)

/-- The noise's standard deviation on row (b, c): the root of the absolute row mean scaled by the f32 tenth. -/
def rowStd (x : SigIdx → EReal) (b : Fin 256) (c : Fin 64) : EReal :=
  Ideal.sqrt (max (Ideal.div (rowSum x b c) (Ideal.ofBits .f32 0x45800000#32))
      (-(Ideal.div (rowSum x b c) (Ideal.ofBits .f32 0x45800000#32))) * Ideal.ofBits .f32 0x3DCCCCCD#32)

/-- The ungated noise term at (b, c, t). -/
def noiseTerm (x : SigIdx → EReal) (n : NoiseIdx → EReal) (b : Fin 256) (c : Fin 64) (t : Fin 4096) : EReal :=
  n (ix3 b c t) * rowStd x b c

/-- The result with the gate as a FACTOR, given as an array of shape [256, 1, 1]. -/
def injectMul (x : SigIdx → EReal) (n : NoiseIdx → EReal) (g : FactorIdx → EReal) : SigIdx → EReal := fun i =>
  x i + noiseTerm x n (i 0) (i 2) (i 3) * g (ix3 (i 0) (0 : Fin 1) (0 : Fin 1))

/-- The result with the gate as a CHOICE between the noise term and zero, on the gate bit of the batch entry. -/
def injectSel (x : SigIdx → EReal) (n : NoiseIdx → EReal) (gate : GateIdx → BitVec 1) : SigIdx → EReal := fun i =>
  x i + Scalar.select (gate (ix1 (i 0))) (noiseTerm x n (i 0) (i 2) (i 3)) 0

/-- The gate bits as factors: bit b of the batch entry read as the number 0 or 1, at (b, 0, 0). -/
def gateFactor (gate : GateIdx → BitVec 1) : FactorIdx → EReal := fun j =>
  (((gate (ix1 (j 0))).toNat : ℝ) : EReal)

/-- A product with a bit read as a number is the choice on that bit between the other factor and zero — for EVERY
    extended real, since `a · 0 = 0` and `a · 1 = a` hold at the infinities too. -/
theorem mul_gate (a : EReal) (bit : BitVec 1) :
    a * (((bit.toNat : ℝ)) : EReal) = Scalar.select bit a 0 := by
  rcases BitVec.eq_zero_or_eq_one bit with h | h
  · subst h
    rw [ValueIdx.select_zero]
    show a * (((0 : ℕ) : ℝ) : EReal) = 0
    rw [Nat.cast_zero, EReal.coe_zero, mul_zero]
  · subst h
    rw [ValueIdx.select_one]
    show a * (((1 : ℕ) : ℝ) : EReal) = a
    rw [Nat.cast_one, EReal.coe_one, mul_one]

/-- So the two spellings of the gate give one result. -/
theorem injectMul_gateFactor (x : SigIdx → EReal) (n : NoiseIdx → EReal) (gate : GateIdx → BitVec 1) :
    injectMul x n (gateFactor gate) = injectSel x n gate := by
  funext i
  unfold injectMul injectSel gateFactor
  rw [mul_gate]

end Cert.NoiseSpec

end
-- ==== Proof.RefNoise.lean ====
/-
  The reference computes the gated noise injection with the gate as a choice.

  Read one operation at a time, the reference's result at (b, 0, c, t) is the signal there plus, chosen on the batch
  entry's gate bit, either the noise at (b, c, t) times the row's standard deviation or zero. The row statistic is the
  host's sum over the time axis (the initial value zero plus the 4096 terms of row (b, c)), divided by 4096, its absolute
  value scaled by the f32 tenth, and the root of that. Every layout operation on the way (the reshape that drops the
  unit axis, the broadcasts along time and along channels) only re-addresses an operand; the index equations below say
  where.
-/
import proofs.«124030_j15848429322599_1_alg».proof.Proof.Gen.ReferenceIdeal.Read
import proofs.«124030_j15848429322599_1_alg».proof.Proof.NoiseSpec

noncomputable section

namespace Cert.ReferenceIdeal.RefValue

open Cert.ReferenceIdeal Cert.ReferenceIdeal.Read Idealize.ShloMosaic Idealize.ShloMosaic.ValueIdx Cert.NoiseSpec

/-- Term k of the reduction at (b, c), read through the reshape, is the signal at (b, 0, c, k). -/
theorem sum_term_idx (b : Fin 256) (c : Fin 64) (k : Fin 4096) :
    idx_main_v0 (idx_main_v1 (ix2 b c) k) = ix4 b (0 : Fin 1) c k := by
  have hb := b.isLt; have hc := c.isLt; have hk := k.isLt
  funext a; apply Fin.ext
  match a with
  | ⟨0, _⟩ => show ((b.val * 64 + c.val) * 4096 + k.val) / 262144 = b.val; omega
  | ⟨1, _⟩ => rfl
  | ⟨2, _⟩ => show ((b.val * 64 + c.val) * 4096 + k.val) / 4096 % 64 = c.val; omega
  | ⟨3, _⟩ => show ((b.val * 64 + c.val) * 4096 + k.val) % 4096 = k.val; omega

/-- The reference's row statistic at (b, c) is the specification's standard deviation of that row. -/
theorem std_eq (x0 : SigIdx → EReal) (b : Fin 256) (c : Fin 64) :
    val_main_v7 (F := Ideal) x0 (ix2 b c) = rowStd x0 b c := by
  rw [val_main_v7_apply, val_main_v6_apply, val_main_v4_apply, val_main_v3_apply, val_main_v1_apply, val_main_v2_apply,
    val_main_cst_0_apply, val_main_v5_apply, val_main_cst_1_apply, val_main_cst_apply]
  simp only [val_main_v0_apply, sum_term_idx]
  unfold rowStd rowSum
  simp only [Ideal.mulf_def, Ideal.hostUnary_sqrt_def, Ideal.hostAbsf_def, Ideal.absf_def, Ideal.hostDivf_def,
    Ideal.ofBits_def, Ideal.ofBits_zero_f32, zero_add]

/-- Where the broadcasts of the row statistic, of the gate bit and of the noise term read their operands. -/
theorem out_idx (b : Fin 256) (c : Fin 64) (k : Fin 4096) : idx_main_v13 (ix4 b (0 : Fin 1) c k) = ix3 b c k := by
  funext a; apply Fin.ext
  match a with
  | ⟨0, _⟩ => rfl
  | ⟨1, _⟩ => rfl
  | ⟨2, _⟩ => rfl
theorem std_idx (b : Fin 256) (c : Fin 64) (k : Fin 4096) : idx_main_v8 (idx_main_v9 (ix3 b c k)) = ix2 b c := by
  funext a; apply Fin.ext
  match a with
  | ⟨0, _⟩ => rfl
  | ⟨1, _⟩ => rfl
theorem gate_idx (b : Fin 256) (c : Fin 64) (k : Fin 4096) : idx_main_v11 (idx_main_call0_v1 (ix3 b c k)) = ix1 b := by
  funext a; apply Fin.ext
  match a with
  | ⟨0, _⟩ => rfl

/-- THE REFERENCE'S RESULT is the gated injection with the gate as a choice. -/
theorem result_eq (x0 : SigIdx → EReal) (x1 : NoiseIdx → EReal) (x2 : GateIdx → BitVec 1) :
    val_main_v14 (F := Ideal) x0 x1 x2 = injectSel x0 x1 x2 := by
  funext i
  obtain ⟨b, z, c, k, rfl⟩ : ∃ (b : Fin 256) (z : Fin 1) (c : Fin 64) (k : Fin 4096), i = ix4 b z c k :=
    ⟨i 0, i 1, i 2, i 3, eq_ix4 i⟩
  obtain rfl : z = 0 := Subsingleton.elim _ _
  rw [val_main_v14_apply, val_main_v13_apply, out_idx, val_main_v12_apply, val_main_call0_v1_apply, val_main_v11_apply,
    gate_idx, val_main_v10_apply, val_main_v9_apply, val_main_v8_apply, std_idx, std_eq, val_main_call0_v2_apply,
    val_main_call0_v0_apply, val_main_cst_2_apply]
  show x0 (ix4 b 0 c k) + Scalar.select (x2 (ix1 b)) (x1 (ix3 b c k) * rowStd x0 b c) (Ideal.ofBits .f32 0x00000000#32)
    = x0 (ix4 b 0 c k) + Scalar.select (x2 (ix1 b)) (x1 (ix3 b c k) * rowStd x0 b c) 0
  rw [Ideal.ofBits_zero_f32]

end Cert.ReferenceIdeal.RefValue

end
-- ==== Proof.BlockNoise.lean ====
/-
  One block of the kernel's result, by coordinates.

  At a grid point the body holds a [4, 1, 64, 4096] slab `P0` of the signal, the matching [4, 64, 4096] slab `P1` of the
  noise and four gate factors `P2` (shape [4, 1, 1]). What it stores at (p, 0, q, k) is

      P0[p,0,q,k] + P1[p,q,k] · √( |(Σ_j P0[p,0,q,j]) / 4096| · s ) · P2[p,0,0],

  the lane sum of row (p, q) of the slab being a plain sum of its 4096 entries on the extended reals.
-/
import proofs.«124030_j15848429322599_1_alg».proof.Proof.Gen.KernelIdeal.Value
import Idealize.ShloMosaic.PureOps.Ideal.Laws
import Idealize.ShloMosaic.Lib.ValueIdx
import Idealize.ShloMosaic.Lib.Pipeline.Value

noncomputable section

namespace Cert.KernelIdeal.BlockValue

open Cert.KernelIdeal Cert.KernelIdeal.Gen Cert.KernelIdeal.Value Idealize.ShloMosaic Idealize.ShloMosaic.ValueIdx

/-- The lane sum of the slab's row (p, q): the sum of its 4096 entries (the unit axis dropped by the shape cast). -/
theorem slab_rowSum (P0 : Vec Ideal S4x1x64x4096 .f32) (p : Fin 4) (q : Fin 64) :
    (multiReduction (F := Ideal) .add [2] S4x64 (shapeCast S4x64x4096 P0 shapeCasts_S4x1x64x4096_S4x64x4096) 0x00000000#32
        reduces_S4x64x4096_S4x64 (.inl rfl) rfl) (ix2 p q)
      = ∑ k : Fin 4096, P0 (ix4 p (0 : Fin 1) q k) := by
  refine (Ideal.multiReduction_add_single (shapeCast S4x64x4096 P0 shapeCasts_S4x1x64x4096_S4x64x4096) 0x00000000#32
    reduces_S4x64x4096_S4x64 (.inl rfl) rfl (ix2 p q)).trans ?_
  refine Finset.sum_congr rfl fun k _ => ?_
  refine shapeCast_apply P0 shapeCasts_S4x1x64x4096_S4x64x4096 _ (ix4 p (0 : Fin 1) q k) ?_
  rw [Shape.rowMajor_val_four, Shape.rowMajor_val_three]
  show ((p.val * 1 + 0) * 64 + q.val) * 4096 + k.val = (p.val * 64 + q.val) * 4096 + k.val
  omega

/-- The stored block at (p, 0, q, k). -/
theorem slab_apply (P0 : Vec Ideal S4x1x64x4096 .f32) (P1 : Vec Ideal S4x64x4096 .f32) (P2 : Vec Ideal S4x1x1 .f32)
    (p : Fin 4) (q : Fin 64) (k : Fin 4096) :
    E3 (F := Ideal) P0 P1 P2 (ix4 p (0 : Fin 1) q k)
      = P0 (ix4 p (0 : Fin 1) q k)
        + P1 (ix3 p q k)
          * Ideal.sqrt (max (Ideal.div (∑ j : Fin 4096, P0 (ix4 p (0 : Fin 1) q j)) (Ideal.ofBits .f32 0x45800000#32))
              (-(Ideal.div (∑ j : Fin 4096, P0 (ix4 p (0 : Fin 1) q j)) (Ideal.ofBits .f32 0x45800000#32)))
            * Ideal.ofBits .f32 0x3DCCCCCD#32)
          * P2 (ix3 p (0 : Fin 1) (0 : Fin 1)) := by
  have e0 : ix3_0 (ix4 p (0 : Fin 1) q k) = ix4 p (0 : Fin 1) q k := by
    funext a; apply Fin.ext
    match a with
    | ⟨0, _⟩ => rfl
    | ⟨1, _⟩ => rfl
    | ⟨2, _⟩ => rfl
    | ⟨3, _⟩ => rfl
  have e1 : ix3_1 (ix4 p (0 : Fin 1) q k) = ix3 p q k := by
    funext a; apply Fin.ext
    match a with
    | ⟨0, _⟩ => rfl
    | ⟨1, _⟩ => rfl
    | ⟨2, _⟩ => rfl
  have e2 : ix3_2 (ix4 p (0 : Fin 1) q k) = ix2 p q := by
    funext a; apply Fin.ext
    match a with
    | ⟨0, _⟩ => rfl
    | ⟨1, _⟩ => rfl
  have e3 : ix3_3 (ix4 p (0 : Fin 1) q k) = ix3 p (0 : Fin 1) (0 : Fin 1) := by
    funext a; apply Fin.ext
    match a with
    | ⟨0, _⟩ => rfl
    | ⟨1, _⟩ => rfl
    | ⟨2, _⟩ => rfl
  dsimp only [E3]
  rw [e0, e1, e2, e3, slab_rowSum]
  rfl

end Cert.KernelIdeal.BlockValue

end
-- ==== Proof.GateArray.lean ====
/-
  The gate factors the kernel's region finds.

  Before the region the host converts the 256 gate bits to f32 (bit b read as the number 0 or 1) and reshapes the
  vector to [256, 1, 1]. So the array the third window stages holds, at (b, 0, 0), the number of gate bit b: the
  specification's `gateFactor` of the gate argument.
-/
import proofs.«124030_j15848429322599_1_alg».proof.Proof.Gen.KernelIdeal.Frame
import proofs.«124030_j15848429322599_1_alg».proof.Proof.NoiseSpec
import Idealize.ShloMosaic.Lib.StableHlo.Run
import Idealize.ShloMosaic.Lib.ValueIdx
import Idealize.ShloMosaic.Lib.Pipeline.Value

noncomputable section

namespace Cert.KernelIdeal.GateValue

open Cert.KernelIdeal Cert.KernelIdeal.Gen Idealize.ShloMosaic Idealize.ShloMosaic.TcCoe Idealize.SL.Sem
open Idealize.ShloMosaic.StableHlo Idealize.ShloMosaic.ValueIdx Cert.NoiseSpec

variable (m : (ℓ : Loc nD τ sig) → Buf (Elt Ideal) ℓ)

/-- The staged gate array is the reshape of the converted gate bits. -/
theorem gate_array (c : Dev nD) : (V m c main_v1 : S256x1x1.Idx → EReal)
    = shapeCast S256x1x1 (uitofp (F := Ideal) .f32 (m ((c : Thread nD τ).loc main_arg2))) shapeCasts_S256_S256x1x1 := by
  dsimp only [Gen.V, Gen.hostOps0]
  after_results
  rfl

/-- Read at an index: the number of the batch entry's gate bit. -/
theorem gate_array_eq (c : Dev nD) :
    (V m c main_v1 : S256x1x1.Idx → EReal) = gateFactor (m ((c : Thread nD τ).loc main_arg2)) := by
  rw [gate_array]
  funext j
  have hk : (S256.rowMajor (ix1 (⟨(j 0).val, (j 0).isLt⟩ : Fin 256))).val = (S256x1x1.rowMajor j).val := by
    rw [Shape.rowMajor_val_one, Shape.rowMajor_val_three]
    have h1 : (j 1).val < 1 := (j 1).isLt
    have h2 : (j 2).val < 1 := (j 2).isLt
    show (j 0).val = ((j 0).val * 1 + (j 1).val) * 1 + (j 2).val
    omega
  exact (shapeCast_apply (s := S256) (t := S256x1x1) (uitofp (F := Ideal) .f32 (m ((c : Thread nD τ).loc main_arg2)))
    shapeCasts_S256_S256x1x1 j (ix1 (⟨(j 0).val, (j 0).isLt⟩ : Fin 256)) hk).trans rfl

end Cert.KernelIdeal.GateValue

end
-- ==== Proof.KernelNoise.lean ====
/-
  The kernel's result array is the gated noise injection with the gate as a factor.

  The grid has 64 points; point t stages rows 4t … 4t+3 of the signal, of the noise and of the gate factors, and writes
  rows 4t … 4t+3 of the result. Each staged block is its array read at batch entry 4t + p (`sig_block`, `noise_block`,
  `gate_block`), so what point t writes back at (p, 0, q, k) is the specification's value at (4t + p, 0, q, k): the row
  sum the body takes over its own slab is the sum of the whole row (4t + p, q) of the signal, because a block holds whole
  rows. The 64 blocks cover the result array (batch entry b lies in the block of point b / 4), so the array ends at
  the specification's function of the argument arrays.
-/
import proofs.«124030_j15848429322599_1_alg».proof.Proof.Gen.KernelIdeal.Value
import proofs.«124030_j15848429322599_1_alg».proof.Proof.NoiseSpec
import proofs.«124030_j15848429322599_1_alg».proof.Proof.BlockNoise
import proofs.«124030_j15848429322599_1_alg».proof.Proof.GateArray
import Idealize.ShloMosaic.Lib.ValueIdx
import Idealize.ShloMosaic.Lib.Pipeline.Value

noncomputable section

namespace Cert.KernelIdeal.NoiseValue

open Cert.KernelIdeal Cert.KernelIdeal.Gen Cert.KernelIdeal.Value Idealize.ShloMosaic Idealize.ShloMosaic.TcCoe
open Idealize.SL.Sem Idealize.ShloMosaic.ValueIdx Cert.NoiseSpec
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- Every window's block index at point t is (t, 0, …, 0): decided over the 64 points. -/
theorem block_indices : ∀ t : Fin cfg0.N,
    (win0_0.index t (0 : Fin 4) = t.val ∧ win0_0.index t (1 : Fin 4) = 0 ∧ win0_0.index t (2 : Fin 4) = 0
      ∧ win0_0.index t (3 : Fin 4) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 4) = t.val ∧ win0_3.index t (1 : Fin 4) = 0 ∧ win0_3.index t (2 : Fin 4) = 0
      ∧ win0_3.index t (3 : Fin 4) = 0) :=
  (by decide +kernel : ∀ t : Fin grid0.N, _)

/-- The signal's block at point t is the signal at batch entries 4t … 4t + 3. -/
theorem sig_block (c : Dev nD) (t : Fin cfg0.N) (b : Fin 256) (p : Fin 4) (hb : b.val = t.val * 4 + p.val)
    (q : Fin 64) (k : Fin 4096) :
    (iblk m c 0 t : Vec Ideal S4x1x64x4096 .f32) (ix4 p (0 : Fin 1) q k)
      = (V m c main_arg0 : S256x1x64x4096.Idx → EReal) (ix4 b (0 : Fin 1) q k) := by
  obtain ⟨⟨e0, e1, e2, e3⟩, -, -, -⟩ := block_indices t
  unfold iblk
  rw [View.read_apply]
  show V m c main_arg0 _ = V m c main_arg0 _
  refine congrArg (V m c main_arg0) ?_
  funext a; apply Fin.ext
  match a with
  | ⟨0, _⟩ => show win0_0.index t (0 : Fin 4) * 4 + 1 * p.val = b.val; rw [e0, hb]; omega
  | ⟨1, _⟩ => show win0_0.index t (1 : Fin 4) * 1 + 1 * 0 = 0; rw [e1]
  | ⟨2, _⟩ => show win0_0.index t (2 : Fin 4) * 64 + 1 * q.val = q.val; rw [e2]; omega
  | ⟨3, _⟩ => show win0_0.index t (3 : Fin 4) * 4096 + 1 * k.val = k.val; rw [e3]; omega

/-- The noise's block likewise. -/
theorem noise_block (c : Dev nD) (t : Fin cfg0.N) (b : Fin 256) (p : Fin 4) (hb : b.val = t.val * 4 + p.val)
    (q : Fin 64) (k : Fin 4096) :
    (iblk m c 1 t : Vec Ideal S4x64x4096 .f32) (ix3 p q k)
      = (V m c main_arg1 : S256x64x4096.Idx → EReal) (ix3 b q k) := by
  obtain ⟨-, ⟨e0, e1, e2⟩, -, -⟩ := block_indices t
  unfold iblk
  rw [View.read_apply]
  show V m c main_arg1 _ = V m c main_arg1 _
  refine congrArg (V m c main_arg1) ?_
  funext a; apply Fin.ext
  match a with
  | ⟨0, _⟩ => show win0_1.index t (0 : Fin 3) * 4 + 1 * p.val = b.val; rw [e0, hb]; omega
  | ⟨1, _⟩ => show win0_1.index t (1 : Fin 3) * 64 + 1 * q.val = q.val; rw [e1]; omega
  | ⟨2, _⟩ => show win0_1.index t (2 : Fin 3) * 4096 + 1 * k.val = k.val; rw [e2]; omega

/-- The gate factors' block: four of them, those of batch entries 4t … 4t + 3. -/
theorem gate_block (c : Dev nD) (t : Fin cfg0.N) (b : Fin 256) (p : Fin 4) (hb : b.val = t.val * 4 + p.val) :
    (iblk m c 2 t : Vec Ideal S4x1x1 .f32) (ix3 p (0 : Fin 1) (0 : Fin 1))
      = (V m c main_v1 : S256x1x1.Idx → EReal) (ix3 b (0 : Fin 1) (0 : Fin 1)) := by
  obtain ⟨-, -, ⟨e0, e1, e2⟩, -⟩ := block_indices t
  unfold iblk
  rw [View.read_apply]
  show V m c main_v1 _ = V m c main_v1 _
  refine congrArg (V m c main_v1) ?_
  funext a; apply Fin.ext
  match a with
  | ⟨0, _⟩ => show win0_2.index t (0 : Fin 3) * 4 + 1 * p.val = b.val; rw [e0, hb]; omega
  | ⟨1, _⟩ => show win0_2.index t (1 : Fin 3) * 1 + 1 * 0 = 0; rw [e1]
  | ⟨2, _⟩ => show win0_2.index t (2 : Fin 3) * 1 + 1 * 0 = 0; rw [e2]

/-- Where the result's block at point t puts its entry (p, 0, q, k): at batch entry 4t + p of the array. -/
theorem out_block_idx (t : Fin cfg0.N) (b : Fin 256) (p : Fin 4) (hb : b.val = t.val * 4 + p.val) (q : Fin 64) (k : Fin 4096) :
    ((cfg0.win 3).blk t).view.emb (ix4 p (0 : Fin 1) q k) = (ix4 b (0 : Fin 1) q k : S256x1x64x4096.Idx) := by
  obtain ⟨-, -, -, ⟨e0, e1, e2, e3⟩⟩ := block_indices t
  funext a; apply Fin.ext
  match a with
  | ⟨0, _⟩ => show win0_3.index t (0 : Fin 4) * 4 + 1 * p.val = b.val; rw [e0, hb]; omega
  | ⟨1, _⟩ => show win0_3.index t (1 : Fin 4) * 1 + 1 * 0 = 0; rw [e1]
  | ⟨2, _⟩ => show win0_3.index t (2 : Fin 4) * 64 + 1 * q.val = q.val; rw [e2]; omega
  | ⟨3, _⟩ => show win0_3.index t (3 : Fin 4) * 4096 + 1 * k.val = k.val; rw [e3]; omega

/-- WHAT POINT t WRITES BACK is block t of the specification's function of the arrays the region finds. -/
theorem flushed_eq (c : Dev nD) (t : Fin cfg0.N) :
    (dats m 0 c).flushed 3 t = ((cfg0.win 3).blk t).view.read (Elt Ideal)
      (injectMul (V m c main_arg0) (V m c main_arg1) (V m c main_v1)) := by
  rw [Value.flushed3]
  unfold out0_3
  rw [View.ld_unit_zero (S := S4x1x64x4096) zeros4, View.ld_unit_zero (S := S4x64x4096) zeros3,
    View.ld_unit_zero (S := S4x1x1) zeros3]
  funext j
  obtain ⟨p, z, q, k, rfl⟩ : ∃ (p : Fin 4) (z : Fin 1) (q : Fin 64) (k : Fin 4096), j = ix4 p z q k :=
    ⟨j 0, j 1, j 2, j 3, eq_ix4 j⟩
  obtain rfl : z = 0 := Subsingleton.elim _ _
  have ht : t.val < 64 := Nat.lt_of_lt_of_eq t.isLt (N_0 : cfg0.N = 64)
  have hb : ((⟨t.val * 4 + p.val, by have := p.isLt; omega⟩ : Fin 256)).val = t.val * 4 + p.val := rfl
  show (View.canon [(⟨r0_0, k0_pay1 (F := Ideal) (iblk m c 0 t) (iblk m c 1 t) (iblk m c 2 t)⟩ :
      View.Piece (Elt Ideal) S4x1x64x4096 .f32)] : Vec Ideal S4x1x64x4096 .f32) (ix4 p (0 : Fin 1) q k)
    = injectMul (V m c main_arg0) (V m c main_arg1) (V m c main_v1) (((cfg0.win 3).blk t).view.emb (ix4 p (0 : Fin 1) q k))
  rw [Value.canon3_eq (iblk m c 0 t) (iblk m c 1 t) (iblk m c 2 t) (ix4 p (0 : Fin 1) q k),
    BlockValue.slab_apply (iblk m c 0 t) (iblk m c 1 t) (iblk m c 2 t) p q k,
    out_block_idx t _ p hb q k, sig_block m c t _ p hb q k, noise_block m c t _ p hb q k, gate_block m c t _ p hb]
  simp only [sig_block m c t _ p hb q]
  rfl

/-- The 64 blocks cover the result array: batch entry b is in the block of point b / 4. -/
theorem covered (i : S256x1x64x4096.Idx) :
    ∃ t : Fin cfg0.N, (cfg0.win 3).flush t = true ∧ i ∈ ((cfg0.win 3).blk t).view.set := by
  have h0 : (i 0).val < 256 := (i 0).isLt
  have h1 : (i 1).val < 1 := (i 1).isLt
  have h2 : (i 2).val < 64 := (i 2).isLt
  have h3 : (i 3).val < 4096 := (i 3).isLt
  have hN : cfg0.N = 64 := N_0
  obtain ⟨t, ht⟩ : ∃ t : Fin cfg0.N, t.val = (i 0).val / 4 := ⟨⟨(i 0).val / 4, by rw [hN]; omega⟩, rfl⟩
  obtain ⟨-, -, -, ⟨e0, e1, e2, e3⟩⟩ := block_indices t
  refine ⟨t, flush0_3 t, ?_⟩
  show i ∈ ((View.whole main_v2).slice (win0_3.rect t)).set
  rw [View.set_slice_whole, Rect.mem_set_unit]
  intro a
  match a with
  | ⟨0, _⟩ =>
    show win0_3.index t (0 : Fin 4) * 4 ≤ (i 0).val ∧ (i 0).val < win0_3.index t (0 : Fin 4) * 4 + 4
    rw [e0, ht]; omega
  | ⟨1, _⟩ =>
    show win0_3.index t (1 : Fin 4) * 1 ≤ (i 1).val ∧ (i 1).val < win0_3.index t (1 : Fin 4) * 1 + 1
    rw [e1]; omega
  | ⟨2, _⟩ =>
    show win0_3.index t (2 : Fin 4) * 64 ≤ (i 2).val ∧ (i 2).val < win0_3.index t (2 : Fin 4) * 64 + 64
    rw [e2]; omega
  | ⟨3, _⟩ =>
    show win0_3.index t (3 : Fin 4) * 4096 ≤ (i 3).val ∧ (i 3).val < win0_3.index t (3 : Fin 4) * 4096 + 4096
    rw [e3]; omega

/-- THE RESULT ARRAY after the run: the gated injection, the gate a choice on the batch entry's bit, of the three
    arguments as launched. -/
theorem final (c : Dev nD) : (dats m 0 c).arrAt 3 cfg0.N
    = injectSel (m ((c : Thread nD τ).loc main_arg0)) (m ((c : Thread nD τ).loc main_arg1)) (m ((c : Thread nD τ).loc main_arg2)) := by
  rw [(dats m 0 c).arrAt_eq_of_cover 3 (injectMul (V m c main_arg0) (V m c main_arg1) (V m c main_v1))
    (fun t _ => flushed_eq m c t) covered]
  rw [GateValue.gate_array_eq m c, injectMul_gateFactor, V_main_arg0, V_main_arg1]

/-- The run, read: the result array at the specification's function, the arguments unchanged. -/
theorem run : θ_run defs (onTc (τ := τ) (main (F := Ideal))) ⟨m, fun _ => 0, ρ⟩ fun r => ∀ c : Dev nD,
      r.2.mem ((c : Thread nD τ).loc main_v2)
        = injectSel (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.NoiseValue

end
-- ==== Proof.lean ====
/-
  Gated Gaussian-noise injection: the kernel against its reference, on the extended reals.

  Both programs compute, at (b, 0, c, t),

      x[b,0,c,t] + gate(b) · n[b,c,t] · √( |mean_k x[b,0,c,k]| · s ),

  with the mean a sum over the 4096 time steps divided by 4096 and `s` the f32 tenth. The kernel walks the batch axis in
  64 blocks of four entries, takes each row's sum inside the block (a block holds whole rows, so this is the row's sum),
  and applies the gate as a factor 0 or 1 that the host made from the gate bit before the launch; the reference takes
  the sums with one host reduction and applies the gate as a choice between the noise term and zero. A product with 0 is
  0 and a product with 1 is the other factor for every extended real, so the two gates agree without any bound on the
  inputs: the precondition is not used. The idealization rewrote nothing, so its conjunct is trivial; the three frames
  are the generated ones (the reference's is its run with the result dropped).
-/
import proofs.«124030_j15848429322599_1_alg».proof.Defs
import proofs.«124030_j15848429322599_1_alg».proof.Proof.Gen.Kernel
import proofs.«124030_j15848429322599_1_alg».proof.Proof.Gen.Kernel.Skeleton
import proofs.«124030_j15848429322599_1_alg».proof.Proof.Gen.Kernel.Launch
import proofs.«124030_j15848429322599_1_alg».proof.Proof.Gen.Kernel.Points
import proofs.«124030_j15848429322599_1_alg».proof.Proof.Gen.Kernel.Frame
import proofs.«124030_j15848429322599_1_alg».proof.Proof.Gen.KernelIdeal
import proofs.«124030_j15848429322599_1_alg».proof.Proof.Gen.KernelIdeal.Skeleton
import proofs.«124030_j15848429322599_1_alg».proof.Proof.Gen.KernelIdeal.Launch
import proofs.«124030_j15848429322599_1_alg».proof.Proof.Gen.KernelIdeal.Points
import proofs.«124030_j15848429322599_1_alg».proof.Proof.Gen.KernelIdeal.Frame
import proofs.«124030_j15848429322599_1_alg».proof.Proof.Gen.ReferenceIdeal
import proofs.«124030_j15848429322599_1_alg».proof.Proof.Gen.Pre_finite_inputs
import proofs.«124030_j15848429322599_1_alg».proof.Proof.Gen.KernelIdeal.Value
import proofs.«124030_j15848429322599_1_alg».proof.Proof.Gen.ReferenceIdeal.Run
import proofs.«124030_j15848429322599_1_alg».proof.Proof.Gen.ReferenceIdeal.Read
import proofs.«124030_j15848429322599_1_alg».proof.Proof.NoiseSpec
import proofs.«124030_j15848429322599_1_alg».proof.Proof.RefNoise
import proofs.«124030_j15848429322599_1_alg».proof.Proof.KernelNoise
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at the gated injection of the shared arguments: the kernel's array block by block with the gate a
    factor, the reference's stage by stage with the gate a choice, one function on the extended reals. -/
theorem algebraic : Cert.algebraic_KernelIdeal_ReferenceIdeal := by
  intro m ρ m' ρ' _ hagree
  refine ⟨fun c => Cert.NoiseSpec.injectSel
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.NoiseValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v14_eq (F := Ideal) _ _ _).trans
    (Cert.ReferenceIdeal.RefValue.result_eq _ _ _)).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
